-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8x4096x64 : Shape := ⟨4, ![1, 8, 4096, 64]⟩
abbrev S_ : Shape := ⟨0, ![]⟩

class Facts : Prop where
  bcast_S_S1x8x4096x64 : S_.BroadcastsInDim S1x8x4096x64 (![] : Fin 0 → Fin S1x8x4096x64.rank)
  reducesTo_S1x8x4096x64_S_d0_1_2_3 : S1x8x4096x64.ReducesTo [0, 1, 2, 3] S_
  h_S_ : 0 < S_.numel

variable [Facts]

def fn {F : FTy → Type} [FloatOps F] (main_arg0 : FVec F S1x8x4096x64 .f32) (main_arg1 : FVec F S1x8x4096x64 .f32) (main_arg2 : FVec F S1x8x4096x64 .f32) : IVec S_ 1 :=
  let main_v0 : FVec F S1x8x4096x64 .f32 := Host.absf main_arg0
  let main_cst : FVec F S_ .f32 := constant S_ .f32 0x7F800000#32
  let main_v1 : FVec F S1x8x4096x64 .f32 := broadcastInDim S1x8x4096x64 ![] bcast_S_S1x8x4096x64 main_cst
  let main_v2 : IVec S1x8x4096x64 1 := cmpf .olt main_v0 main_v1
  let main_c : IVec S_ 1 := constantI S_ 1 1#1
  let main_v3 : IVec S_ 1 := (fun x v => Host.reduce IntOp.andi x v reducesTo_S1x8x4096x64_S_d0_1_2_3 h_S_) main_v2 main_c
  let main_v4 : FVec F S1x8x4096x64 .f32 := Host.absf main_arg1
  let main_cst_0 : FVec F S_ .f32 := constant S_ .f32 0x7F800000#32
  let main_v5 : FVec F S1x8x4096x64 .f32 := broadcastInDim S1x8x4096x64 ![] bcast_S_S1x8x4096x64 main_cst_0
  let main_v6 : IVec S1x8x4096x64 1 := cmpf .olt main_v4 main_v5
  let main_c_1 : IVec S_ 1 := constantI S_ 1 1#1
  let main_v7 : IVec S_ 1 := (fun x v => Host.reduce IntOp.andi x v reducesTo_S1x8x4096x64_S_d0_1_2_3 h_S_) main_v6 main_c_1
  let main_v8 : IVec S_ 1 := andi main_v3 main_v7
  let main_v9 : FVec F S1x8x4096x64 .f32 := Host.absf main_arg2
  let main_cst_2 : FVec F S_ .f32 := constant S_ .f32 0x7F800000#32
  let main_v10 : FVec F S1x8x4096x64 .f32 := broadcastInDim S1x8x4096x64 ![] bcast_S_S1x8x4096x64 main_cst_2
  let main_v11 : IVec S1x8x4096x64 1 := cmpf .olt main_v9 main_v10
  let main_c_3 : IVec S_ 1 := constantI S_ 1 1#1
  let main_v12 : IVec S_ 1 := (fun x v => Host.reduce IntOp.andi x v reducesTo_S1x8x4096x64_S_d0_1_2_3 h_S_) main_v11 main_c_3
  let main_v13 : IVec S_ 1 := andi main_v8 main_v12
  main_v13
-- ==== Kernel.lean ====
abbrev S1x8x4096x64 : Shape := ⟨4, ![1, 8, 4096, 64]⟩
abbrev S8x4096x64 : Shape := ⟨3, ![8, 4096, 64]⟩
abbrev S1x4096x64 : Shape := ⟨3, ![1, 4096, 64]⟩
abbrev S4096x64 : Shape := ⟨2, ![4096, 64]⟩
abbrev S64x64 : Shape := ⟨2, ![64, 64]⟩

abbrev nBuf : Space → Nat
  | .hbm => 8
  | .vmem => 8
  | .smem => 0
  | _ => 0

abbrev bufTy : (tb : Table) → Fin (tcTables nBuf tb) → BufTy
  | .hbm, ⟨0, _⟩ => ⟨S1x8x4096x64, .f32⟩
  | .hbm, ⟨1, _⟩ => ⟨S1x8x4096x64, .f32⟩
  | .hbm, ⟨2, _⟩ => ⟨S1x8x4096x64, .f32⟩
  | .hbm, ⟨3, _⟩ => ⟨S8x4096x64, .f32⟩
  | .hbm, ⟨4, _⟩ => ⟨S8x4096x64, .f32⟩
  | .hbm, ⟨5, _⟩ => ⟨S8x4096x64, .f32⟩
  | .hbm, ⟨6, _⟩ => ⟨S8x4096x64, .f32⟩
  | .hbm, ⟨7, _⟩ => ⟨S1x8x4096x64, .f32⟩
  | .local _ .vmem, ⟨0, _⟩ => ⟨S1x4096x64, .f32⟩
  | .local _ .vmem, ⟨1, _⟩ => ⟨S1x4096x64, .f32⟩
  | .local _ .vmem, ⟨2, _⟩ => ⟨S1x4096x64, .f32⟩
  | .local _ .vmem, ⟨3, _⟩ => ⟨S1x4096x64, .f32⟩
  | .local _ .vmem, ⟨4, _⟩ => ⟨S1x4096x64, .f32⟩
  | .local _ .vmem, ⟨5, _⟩ => ⟨S1x4096x64, .f32⟩
  | .local _ .vmem, ⟨6, _⟩ => ⟨S1x4096x64, .f32⟩
  | .local _ .vmem, ⟨7, _⟩ => ⟨S1x4096x64, .f32⟩
  | _, _ => ⟨S1x8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x8x4096x64_S8x4096x64 : S1x8x4096x64.ShapeCasts S8x4096x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  shapeCasts_S4096x64_S1x4096x64 : S4096x64.ShapeCasts S1x4096x64
  shapeCasts_S8x4096x64_S1x8x4096x64 : S8x4096x64.ShapeCasts S1x8x4096x64
  dot_S4096x64_S4096x64_S64x64_0_0_1_1_n_n_wf : DotDims.WF S4096x64 S4096x64 S64x64 [0] [0] [1] [1] [] []
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S8x4096x64.size a
  hwx0_0 : ∀ i : grid0.Coords, EltTy.bits .f32 = 32 ∨ (Rect.block (s := S8x4096x64) S1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S8x4096x64.size a
  hwx0_1 : ∀ i : grid0.Coords, EltTy.bits .f32 = 32 ∨ (Rect.block (s := S8x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S8x4096x64.size a
  hwx0_2 : ∀ i : grid0.Coords, EltTy.bits .f32 = 32 ∨ (Rect.block (s := S8x4096x64) S1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x64.size a ≤ S8x4096x64.size a
  hwx0_3 : ∀ i : grid0.Coords, EltTy.bits .f32 = 32 ∨ (Rect.block (s := S8x4096x64) S1x4096x64.size (cc0_transform_3 i) (hinb0_3 i)).WholeWords (EltTy.packing .f32)

variable [Facts₀]

def dot_S4096x64_S4096x64_S64x64_0_0_1_1_n_n : DotDims S4096x64 S4096x64 S64x64 where
  lhsContracting := [0]
  rhsContracting := [0]
  lhsNonContracting := [1]
  rhsNonContracting := [1]
  lhsBatch := []
  rhsBatch := []
  wf := dot_S4096x64_S4096x64_S64x64_0_0_1_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_v0) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x8x4096x64 : Shape := ⟨4, ![1, 8, 4096, 64]⟩
abbrev S1x8x4096x4096 : Shape := ⟨4, ![1, 8, 4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1x8x4096x64, .f32⟩
  | .hbm, ⟨1, _⟩ => ⟨S1x8x4096x64, .f32⟩
  | .hbm, ⟨2, _⟩ => ⟨S1x8x4096x64, .f32⟩
  | .hbm, ⟨3, _⟩ => ⟨S1x8x4096x4096, .f32⟩
  | .hbm, ⟨4, _⟩ => ⟨S_, .f32⟩
  | .hbm, ⟨5, _⟩ => ⟨S1x8x4096x4096, .f32⟩
  | .hbm, ⟨6, _⟩ => ⟨S1x8x4096x4096, .f32⟩
  | .hbm, ⟨7, _⟩ => ⟨S1x8x4096x64, .f32⟩
  | _, _ => ⟨S1x8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  bcast_S_S1x8x4096x4096 : S_.BroadcastsInDim S1x8x4096x4096 (![] : Fin 0 → Fin S1x8x4096x4096.rank)
  dot_S1x8x4096x64_S1x8x4096x64_S1x8x4096x4096_3_3_2_2_01_01_wf : DotDims.WF S1x8x4096x64 S1x8x4096x64 S1x8x4096x4096 [3] [3] [2] [2] [0, 1] [0, 1]
  dot_S1x8x4096x4096_S1x8x4096x64_S1x8x4096x64_3_2_2_3_01_01_wf : DotDims.WF S1x8x4096x4096 S1x8x4096x64 S1x8x4096x64 [3] [2] [2] [3] [0, 1] [0, 1]

variable [Facts₀]

def dot_S1x8x4096x64_S1x8x4096x64_S1x8x4096x4096_3_3_2_2_01_01 : DotDims S1x8x4096x64 S1x8x4096x64 S1x8x4096x4096 where
  lhsContracting := [3]
  rhsContracting := [3]
  lhsNonContracting := [2]
  rhsNonContracting := [2]
  lhsBatch := [0, 1]
  rhsBatch := [0, 1]
  wf := dot_S1x8x4096x64_S1x8x4096x64_S1x8x4096x4096_3_3_2_2_01_01_wf
def dot_S1x8x4096x4096_S1x8x4096x64_S1x8x4096x64_3_2_2_3_01_01 : DotDims S1x8x4096x4096 S1x8x4096x64 S1x8x4096x64 where
  lhsContracting := [3]
  rhsContracting := [2]
  lhsNonContracting := [2]
  rhsNonContracting := [3]
  lhsBatch := [0, 1]
  rhsBatch := [0, 1]
  wf := dot_S1x8x4096x4096_S1x8x4096x64_S1x8x4096x64_3_2_2_3_01_01_wf

class Facts : Prop extends Facts₀ where

variable [Facts]
-- ==== Proof.AttnLaw.lean ====
/-
  The one algebraic law that joins the two programs.

  For one head, one query row `s` and one output column `d`, write `a e = q[s,e]`, `b t e = k[t,e]`,
  `w t = v[t,d]` and `c` for the scale. The kernel forms the small matrix `Kᵀ V` first, scales it and multiplies
  the query row into it:            `∑ e, a e * ((∑ t, b t e * w t) * c)`.
  The reference forms the scores `Q Kᵀ` first, scales them and multiplies them into `V`:
                                    `∑ t, ((∑ e, a e * b t e) * c) * w t`.
  Both are `c · ∑ e, ∑ t, a e · b t e · w t` when every entry is a real number: distributivity of `·` over finite
  sums and the exchange of two finite sums. On the extended reals distributivity fails at the infinities, so the law
  is stated for entries that are (coercions of) reals, which is what the finiteness precondition provides.
-/
import Idealize.ShloMosaic.PureOps.Ideal

noncomputable section

namespace Cert.AttnLaw

open Idealize.ShloMosaic

/-- The coercion `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: `Q (c · Kᵀ V) = (c · Q Kᵀ) V`, entry by entry. -/
theorem assoc_real {T E : Type*} [Fintype T] [Fintype E] (a : E → ℝ) (b : T → E → ℝ) (w : T → ℝ) (c : ℝ) :
    ∑ e, a e * ((∑ t, b t e * w t) * c) = ∑ t, ((∑ e, a e * b t e) * c) * w t := by
  simp only [Finset.sum_mul, Finset.mul_sum]
  rw [Finset.sum_comm]
  exact Finset.sum_congr rfl fun t _ => Finset.sum_congr rfl fun e _ => by ring

/-- The same on the extended reals, for entries that are reals. -/
theorem assoc_coe {T E : Type*} [Fintype T] [Fintype E] (a : E → ℝ) (b : T → E → ℝ) (w : T → ℝ) (c : ℝ) :
    ∑ e, (a e : EReal) * ((∑ t, (b t e : EReal) * (w t : EReal)) * (c : EReal))
      = ∑ t, ((∑ e, (a e : EReal) * (b t e : EReal)) * (c : EReal)) * (w t : EReal) := by
  simp only [← EReal.coe_mul, ← coe_sum]
  exact congrArg _ (assoc_real a b w c)

/-- The law as the two programs meet it: extended-real entries, each known to be a real. -/
theorem assoc_of_finite {T E : Type*} [Fintype T] [Fintype E] (a : E → EReal) (b : T → E → EReal) (w : T → EReal)
    (c : EReal) (ha : ∀ e, ∃ r : ℝ, a e = r) (hb : ∀ t e, ∃ r : ℝ, b t e = r) (hw : ∀ t, ∃ r : ℝ, w t = r)
    (hc : ∃ r : ℝ, c = r) :
    ∑ e, a e * ((∑ t, b t e * w t) * c) = ∑ t, ((∑ e, a e * b t e) * c) * w t := by
  choose a' ha using ha
  choose b' hb using hb
  choose w' hw using hw
  obtain ⟨c', rfl⟩ := hc
  obtain rfl : a = fun e => (a' e : EReal) := funext ha
  obtain rfl : b = fun t e => (b' t e : EReal) := funext fun t => funext (hb t)
  obtain rfl : w = fun t => (w' t : EReal) := funext hw
  exact assoc_coe a' b' w' c'

/-- The scale both programs multiply by, the word of `0.125 = 1/√64`, is a real number. -/
theorem scale_real : ∃ r : ℝ, Ideal.ofBits .f32 0x3E000000#32 = (r : EReal) := by
  refine ⟨(1 / 8 : ℝ), ?_⟩
  simp [Ideal.ofBits, Ideal.ieee, -EReal.coe_mul]
  norm_num

end Cert.AttnLaw

end
-- ==== Proof.AttnSpec.lean ====
/-
  What the two programs compute, on coordinates.

  The arrays are `[1, 8, 4096, 64]`: a unit batch axis, eight heads, 4096 positions, 64 features. For head `h`,
  query position `s` and feature `d` the result entry is, in the reference's arrangement,

      ∑ t, ((∑ e, q[h,s,e] · k[h,t,e]) · c) · v[h,t,d]          (scores first, then the values)

  and, in the kernel's arrangement,

      ∑ e, q[h,s,e] · ((∑ t, k[h,t,e] · v[h,t,d]) · c)          (keysᵀ·values first, a 64 × 64 matrix per head)

  with `t` over the 4096 positions and `e` over the 64 features. The two agree when every entry of `q`, `k`, `v`
  and the scale `c` is a real number (`AttnLaw.assoc_of_finite`).
-/
import Idealize.ShloMosaic.Lib.ValueIdx
import proofs.«118114_j89421219103270_2_alg».proof.Proof.AttnLaw

noncomputable section

namespace Cert.AttnSpec

open Idealize.ShloMosaic Idealize.ShloMosaic.ValueIdx

/-- The shape of every argument and of the result. -/
abbrev QKV : Shape := ⟨4, ![1, 8, 4096, 64]⟩

/-- The reference's arrangement: scaled scores, then the values. -/
def scoresFirst (q k v : QKV.Idx → EReal) (c : EReal) (u : Fin 1) (h : Fin 8) (s : Fin 4096) (d : Fin 64) : EReal :=
  ∑ t : Fin 4096, ((∑ e : Fin 64, q (ix4 u h s e) * k (ix4 u h t e)) * c) * v (ix4 u h t d)

/-- The kernel's arrangement: the scaled 64 × 64 matrix `Kᵀ V` of the head, then the query row into it. -/
def keysValuesFirst (q k v : QKV.Idx → EReal) (c : EReal) (u : Fin 1) (h : Fin 8) (s : Fin 4096) (d : Fin 64) : EReal :=
  ∑ e : Fin 64, q (ix4 u h s e) * ((∑ t : Fin 4096, k (ix4 u h t e) * v (ix4 u h t d)) * c)

/-- For finite entries the two arrangements are one number. -/
theorem keysValuesFirst_eq_scoresFirst (q k v : QKV.Idx → EReal) (c : EReal)
    (hq : ∀ i, ∃ r : ℝ, q i = r) (hk : ∀ i, ∃ r : ℝ, k i = r) (hv : ∀ i, ∃ r : ℝ, v i = r) (hc : ∃ r : ℝ, c = r)
    (u : Fin 1) (h : Fin 8) (s : Fin 4096) (d : Fin 64) :
    keysValuesFirst q k v c u h s d = scoresFirst q k v c u h s d :=
  Cert.AttnLaw.assoc_of_finite (fun e => q (ix4 u h s e)) (fun t e => k (ix4 u h t e)) (fun t => v (ix4 u h t d)) c
    (fun _ => hq _) (fun _ _ => hk _) (fun _ => hv _) hc

end Cert.AttnSpec

end
-- ==== Proof.Finite.lean ====
/-
  The precondition, read back: every entry of the three inputs is a real number.

  The precondition is `all(|q| < +inf) ∧ all(|k| < +inf) ∧ all(|v| < +inf)`. An `and` of one-bit words is 1 only when
  both are; an `all` (a reduction by `and` into a single word) is 1 only when every compared entry gave 1; and an
  extended real `x` with `max x (-x) < ⊤` is neither `⊤` nor `⊥`, hence a real.
-/
import proofs.«118114_j89421219103270_2_alg».proof.Pre_finite_inputs
import proofs.«118114_j89421219103270_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Pre_finite_inputs.Finite

open Idealize.ShloMosaic Cert.Pre_finite_inputs Cert.Pre_finite_inputs.Gen

/-- The rank-0 shape has one index. -/
instance : Subsingleton S_.Idx := ⟨fun a b => funext fun d => d.elim0⟩

/-- The word the entries are compared against is `+inf`. -/
theorem inf_word : Ideal.ofBits .f32 0x7F800000#32 = (⊤ : EReal) := by simp [Ideal.ofBits, Ideal.ieee]

/-- An extended real whose absolute value compares below `+inf` is a real number. -/
theorem real_of_abs_lt (x : EReal)
    (h : FloatOps.cmpf (F := Ideal) (φ := .f32) .olt (FloatOps.absf (F := Ideal) (φ := .f32) x) (Ideal.ofBits .f32 0x7F800000#32) = 1#1) :
    ∃ r : ℝ, x = r := by
  rw [Ideal.cmpf_def, Ideal.absf_def, inf_word] at h
  have hlt : max x (-x) < ⊤ := by
    by_contra hn
    simp [Ideal.cmp, hn] at h
  induction x using EReal.rec with
  | bot => simp at hlt
  | coe r => exact ⟨r, rfl⟩
  | top => simp at hlt

/-- One input whose `all(|x| < +inf)` came out 1 has only real entries. -/
theorem entries_real (x : FVec Ideal S1x8x4096x64 .f32)
    (hb : S_.BroadcastsInDim S1x8x4096x64 (![] : Fin 0 → Fin S1x8x4096x64.rank))
    (hr : S1x8x4096x64.ReducesTo [0, 1, 2, 3] S_) (hu : 0 < S_.numel)
    (e : Host.reduce IntOp.andi
          (cmpf CmpFPredicate.olt (Host.absf x) (broadcastInDim S1x8x4096x64 ![] hb (constant S_ FTy.f32 0x7F800000#32)))
          (constantI S_ 1 1#1) hr hu ValueIdx.ix0 = 1#1) (i : S1x8x4096x64.Idx) : ∃ r : ℝ, x i = r := by
  have hi := Host.reduce_andi_all _ _ hr hu ValueIdx.ix0 e i
  have hbc : broadcastInDim S1x8x4096x64 ![] hb (constant (F := Ideal) S_ .f32 0x7F800000#32) i = Ideal.ofBits .f32 0x7F800000#32 :=
    broadcastInDim_apply _ hb _ i ValueIdx.ix0 (fun a => a.elim0)
  refine real_of_abs_lt (x i) ?_
  rw [← hbc]
  exact hi

/-- The precondition gives: every entry of `q`, of `k` and of `v` is a real number. -/
theorem finite_of_pre (q k v : FVec Ideal S1x8x4096x64 .f32) (h : fn (F := Ideal) q k v = fun _ => 1#1) :
    (∀ i, ∃ r : ℝ, q i = r) ∧ (∀ i, ∃ r : ℝ, k i = r) ∧ (∀ i, ∃ r : ℝ, v i = r) := by
  have h0 := congrFun h ValueIdx.ix0
  dsimp only [fn] at h0
  change IntOp.andi (IntOp.andi _ _) _ = 1#1 at h0
  obtain ⟨hqk, hv⟩ := IntOp.andi_eq_one.1 h0
  obtain ⟨hq, hk⟩ := IntOp.andi_eq_one.1 hqk
  exact ⟨entries_real q _ _ _ hq, entries_real k _ _ _ hk, entries_real v _ _ _ hv⟩

end Cert.Pre_finite_inputs.Finite

end
-- ==== Proof.RefValue.lean ====
/-
  The reference, read at an index.

  The reference is two batched matrix products with a scaling between them: the scores
  `scores[h,s,t] = ∑ e, q[h,s,e] · k[h,t,e]`, scaled by `c = 0.125`, then
  `out[h,s,d] = ∑ t, (scores[h,s,t] · c) · v[h,t,d]`. At the ideal values each product is a plain finite sum, so the
  result at `(h, s, d)` is `AttnSpec.scoresFirst`.
-/
import proofs.«118114_j89421219103270_2_alg».proof.Proof.Gen.ReferenceIdeal.Read
import proofs.«118114_j89421219103270_2_alg».proof.Proof.AttnSpec

noncomputable section

namespace Cert.ReferenceIdeal.RefValue

open Cert.ReferenceIdeal Cert.ReferenceIdeal.Read Idealize.ShloMosaic Idealize.ShloMosaic.ValueIdx Cert.AttnSpec

/-- The reference's result at `(h, s, d)`: the scaled scores of row `s` against every position `t`, summed against
    column `d` of the values. -/
theorem result_apply (q k v : S1x8x4096x64.Idx → EReal) (u : Fin 1) (h : Fin 8) (s : Fin 4096) (d : Fin 64) :
    val_main_v3 (F := Ideal) q k v (ix4 u h s d) = scoresFirst q k v (Ideal.ofBits .f32 0x3E000000#32) u h s d := by
  -- the operand indices of the second product: row (h, s) of the scores, column (h, d) of the values
  have e3l : ∀ t : Fin 4096, lidx_main_v3 (ix4 u h s d) t = (ix4 u h s t : S1x8x4096x4096.Idx) := fun t =>
    funext fun a => Fin.ext (by match a with | ⟨0, _⟩ => rfl | ⟨1, _⟩ => rfl | ⟨2, _⟩ => rfl | ⟨3, _⟩ => rfl)
  have e3r : ∀ t : Fin 4096, ridx_main_v3 (ix4 u h s d) t = (ix4 u h t d : S1x8x4096x64.Idx) := fun t =>
    funext fun a => Fin.ext (by match a with | ⟨0, _⟩ => rfl | ⟨1, _⟩ => rfl | ⟨2, _⟩ => rfl | ⟨3, _⟩ => rfl)
  -- the operand indices of the first product: row (h, s) of the queries, row (h, t) of the keys
  have e0l : ∀ (t : Fin 4096) (e : Fin 64), lidx_main_v0 (ix4 u h s t : S1x8x4096x4096.Idx) e = (ix4 u h s e : S1x8x4096x64.Idx) :=
    fun t e => funext fun a => Fin.ext (by match a with | ⟨0, _⟩ => rfl | ⟨1, _⟩ => rfl | ⟨2, _⟩ => rfl | ⟨3, _⟩ => rfl)
  have e0r : ∀ (t : Fin 4096) (e : Fin 64), ridx_main_v0 (ix4 u h s t : S1x8x4096x4096.Idx) e = (ix4 u h t e : S1x8x4096x64.Idx) :=
    fun t e => funext fun a => Fin.ext (by match a with | ⟨0, _⟩ => rfl | ⟨1, _⟩ => rfl | ⟨2, _⟩ => rfl | ⟨3, _⟩ => rfl)
  rw [val_main_v3_apply]
  unfold scoresFirst
  refine Finset.sum_congr rfl fun t _ => ?_
  rw [e3l, e3r, val_main_v2_apply, val_main_v0_apply, val_main_v1_apply, val_main_cst_apply]
  simp only [e0l, e0r, Ideal.mulf_def, Ideal.ofBits_def]

end Cert.ReferenceIdeal.RefValue

end
-- ==== Proof.KernelBody.lean ====
/-
  The kernel's body, read at an index.

  At one grid point the body holds one head: its keys `K`, values `V` and queries `Q`, each `4096 × 64` behind a
  unit leading axis. It forms `M = Kᵀ V` (a `64 × 64` matrix, the sum running over the 4096 positions), scales every
  entry by `c = 0.125`, and stores `Q M` (the sum running over the 64 features). At the ideal values a matrix product
  into a zero accumulator is the plain finite sum of products, so the stored entry at `(s, d)` is
  `∑ e, Q[s,e] · ((∑ t, K[t,e] · V[t,d]) · c)`.
-/
import proofs.«118114_j89421219103270_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## `Kᵀ V`: both operands contracted on their position axis (axis 0), the result indexed by the two feature axes -/

local notation "DKV" => dot_S4096x64_S4096x64_S64x64_0_0_1_1_n_n

theorem kv_lhs_0 (j : S64x64.Idx) (q : DotDims.contr DKV |>.Idx) : (DotDims.lhsIdx DKV j q 0).val = (q ⟨0, by decide⟩).val :=
  DotDims.lhsIdx_val_of_single DKV rfl j q
theorem kv_lhs_1 (j : S64x64.Idx) (q : DotDims.contr DKV |>.Idx) : (DotDims.lhsIdx DKV j q 1).val = (j 0).val := by
  unfold DotDims.lhsIdx
  rw [dif_neg (show ¬(1 : Fin S4096x64.rank) ∈ DotDims.lhsBatch DKV by decide),
    dif_pos (show (1 : Fin S4096x64.rank) ∈ DotDims.lhsNonContracting DKV by decide)]
  rfl
theorem kv_rhs_0 (j : S64x64.Idx) (q : DotDims.contr DKV |>.Idx) : (DotDims.rhsIdx DKV j q 0).val = (q ⟨0, by decide⟩).val :=
  DotDims.rhsIdx_val_of_single DKV rfl j q
theorem kv_rhs_1 (j : S64x64.Idx) (q : DotDims.contr DKV |>.Idx) : (DotDims.rhsIdx DKV j q 1).val = (j 1).val := by
  unfold DotDims.rhsIdx
  rw [dif_neg (show ¬(1 : Fin S4096x64.rank) ∈ DotDims.rhsBatch DKV by decide),
    dif_pos (show (1 : Fin S4096x64.rank) ∈ DotDims.rhsNonContracting DKV by decide)]
  rfl

/-- `Kᵀ V` at `(e, d)` is the sum over the positions `t` of `K[t,e] · V[t,d]`. -/
theorem keysValues_apply (K V : FVec Ideal S4096x64 .f32) (e d : Fin 64) :
    FloatOps.matmul DKV (some .fp32) K V (constant S64x64 .f32 0x00000000#32) (ix2 e d)
      = ∑ t : Fin 4096, K (ix2 t e) * V (ix2 t d) := by
  rw [Ideal.matmul_constant_zero_apply, ← Equiv.sum_comp (contrEquiv1 DKV 4096 rfl rfl).symm]
  refine Finset.sum_congr rfl fun t _ => ?_
  have ht := contrEquiv1_symm_val DKV 4096 rfl rfl t
  have el : DotDims.lhsIdx DKV (ix2 e d) ((contrEquiv1 DKV 4096 rfl rfl).symm t) = ix2 t e :=
    funext fun a => Fin.ext (by
      match a with
      | ⟨0, _⟩ => exact (kv_lhs_0 _ _).trans ht
      | ⟨1, _⟩ => exact kv_lhs_1 _ _)
  have er : DotDims.rhsIdx DKV (ix2 e d) ((contrEquiv1 DKV 4096 rfl rfl).symm t) = ix2 t d :=
    funext fun a => Fin.ext (by
      match a with
      | ⟨0, _⟩ => exact (kv_rhs_0 _ _).trans ht
      | ⟨1, _⟩ => exact kv_rhs_1 _ _)
  rw [el, er]

/-! ## `Q M`: the queries contracted on their feature axis (axis 1) against the rows (axis 0) of `M` -/

local notation "DQM" => dot_S4096x64_S64x64_S4096x64_1_0_0_1_n_n

theorem qm_lhs_0 (j : S4096x64.Idx) (q : DotDims.contr DQM |>.Idx) : (DotDims.lhsIdx DQM j q 0).val = (j 0).val := by
  unfold DotDims.lhsIdx
  rw [dif_neg (show ¬(0 : Fin S4096x64.rank) ∈ DotDims.lhsBatch DQM by decide),
    dif_pos (show (0 : Fin S4096x64.rank) ∈ DotDims.lhsNonContracting DQM by decide)]
  rfl
theorem qm_lhs_1 (j : S4096x64.Idx) (q : DotDims.contr DQM |>.Idx) : (DotDims.lhsIdx DQM j q 1).val = (q ⟨0, by decide⟩).val :=
  DotDims.lhsIdx_val_of_single DQM rfl j q
theorem qm_rhs_0 (j : S4096x64.Idx) (q : DotDims.contr DQM |>.Idx) : (DotDims.rhsIdx DQM j q 0).val = (q ⟨0, by decide⟩).val :=
  DotDims.rhsIdx_val_of_single DQM rfl j q
theorem qm_rhs_1 (j : S4096x64.Idx) (q : DotDims.contr DQM |>.Idx) : (DotDims.rhsIdx DQM j q 1).val = (j 1).val := by
  unfold DotDims.rhsIdx
  rw [dif_neg (show ¬(1 : Fin S64x64.rank) ∈ DotDims.rhsBatch DQM by decide),
    dif_pos (show (1 : Fin S64x64.rank) ∈ DotDims.rhsNonContracting DQM by decide)]
  rfl

/-- `Q M` at `(s, d)` is the sum over the features `e` of `Q[s,e] · M[e,d]`. -/
theorem queriesInto_apply (Q : FVec Ideal S4096x64 .f32) (M : FVec Ideal S64x64 .f32) (s : Fin 4096) (d : Fin 64) :
    FloatOps.matmul DQM (some .fp32) Q M (constant S4096x64 .f32 0x00000000#32) (ix2 s d)
      = ∑ e : Fin 64, Q (ix2 s e) * M (ix2 e d) := by
  rw [Ideal.matmul_constant_zero_apply, ← Equiv.sum_comp (contrEquiv1 DQM 64 rfl rfl).symm]
  refine Finset.sum_congr rfl fun e _ => ?_
  have he := contrEquiv1_symm_val DQM 64 rfl rfl e
  have el : DotDims.lhsIdx DQM (ix2 s d) ((contrEquiv1 DQM 64 rfl rfl).symm e) = ix2 s e :=
    funext fun a => Fin.ext (by
      match a with
      | ⟨0, _⟩ => exact qm_lhs_0 _ _
      | ⟨1, _⟩ => exact (qm_lhs_1 _ _).trans he)
  have er : DotDims.rhsIdx DQM (ix2 s d) ((contrEquiv1 DQM 64 rfl rfl).symm e) = ix2 e d :=
    funext fun a => Fin.ext (by
      match a with
      | ⟨0, _⟩ => exact (qm_rhs_0 _ _).trans he
      | ⟨1, _⟩ => exact qm_rhs_1 _ _)
  rw [el, er]

/-! ## The stored block -/

/-- What the body stores, at position `s` and feature `d` of its block (`xk`, `xv`, `xq` the loaded blocks of the
    keys, the values and the queries): the query row into the scaled `Kᵀ V`. -/
theorem stored_apply (xk xv xq : Vec Ideal S1x4096x64 .f32) (u : Fin 1) (s : Fin 4096) (d : Fin 64) :
    k0_pay1 (F := Ideal) xk xv xq (ix3 u s d)
      = ∑ e : Fin 64, xq (ix3 (0 : Fin 1) s e)
          * ((∑ t : Fin 4096, xk (ix3 (0 : Fin 1) t e) * xv (ix3 (0 : Fin 1) t d)) * Ideal.ofBits .f32 0x3E000000#32) := by
  unfold k0_pay1
  refine (ValueIdx.shapeCast_ab_1ab_apply _ _ u s d).trans ?_
  refine (queriesInto_apply _ _ s d).trans ?_
  refine Finset.sum_congr rfl fun e _ => ?_
  refine congrArg₂ (· * ·) (ValueIdx.shapeCast_1ab_ab_apply xq _ s e) ?_
  refine congrArg₂ (· * ·) ((keysValues_apply _ _ e d).trans ?_) rfl
  exact Finset.sum_congr rfl fun t _ =>
    congrArg₂ (· * ·) (ValueIdx.shapeCast_1ab_ab_apply xk _ t e) (ValueIdx.shapeCast_1ab_ab_apply xv _ t d)

/-! ## The block as one head of the whole arrays -/

/-- The kernel's result for the eight heads laid out as `[8, 4096, 64]`, on coordinates: head `h`, position `s`,
    feature `d`. -/
def headsOut (Q K V : S8x4096x64.Idx → EReal) (h : Fin 8) (s : Fin 4096) (d : Fin 64) : EReal :=
  ∑ e : Fin 64, Q (ix3 h s e) * ((∑ t : Fin 4096, K (ix3 h t e) * V (ix3 h t d)) * Ideal.ofBits .f32 0x3E000000#32)

/-- The same as an array. -/
def headsArr (Q K V : S8x4096x64.Idx → EReal) : S8x4096x64.Idx → EReal := fun i => headsOut Q K V (i 0) (i 1) (i 2)

/-- If the three loaded blocks are head `h` of three `[8, 4096, 64]` arrays, the stored block is head `h` of
    `headsArr`: its entry `j` is the array's entry `i` whenever `i` is `(h, j 1, j 2)`. -/
theorem stored_eq_head (xq xk xv : Vec Ideal S1x4096x64 .f32) (Q K V : S8x4096x64.Idx → EReal) (h : Fin 8)
    (hq : ∀ (s : Fin 4096) (e : Fin 64), xq (ix3 (0 : Fin 1) s e) = Q (ix3 h s e))
    (hk : ∀ (s : Fin 4096) (e : Fin 64), xk (ix3 (0 : Fin 1) s e) = K (ix3 h s e))
    (hv : ∀ (s : Fin 4096) (e : Fin 64), xv (ix3 (0 : Fin 1) s e) = V (ix3 h s e))
    (j : S1x4096x64.Idx) (i : S8x4096x64.Idx)
    (h0 : (i 0).val = h.val) (h1 : (i 1).val = (j 1).val) (h2 : (i 2).val = (j 2).val) :
    k0_pay1 (F := Ideal) xk xv xq j = headsArr Q K V i := by
  obtain ⟨u, s, d, rfl⟩ : ∃ (u : Fin 1) (s : Fin 4096) (d : Fin 64), j = ix3 u s d := ⟨j 0, j 1, j 2, eq_ix3 j⟩
  have e0 : (i 0 : Fin 8) = h := Fin.ext h0
  have e1 : (i 1 : Fin 4096) = s := Fin.ext h1
  have e2 : (i 2 : Fin 64) = d := Fin.ext h2
  show _ = headsOut Q K V (i 0) (i 1) (i 2)
  rw [e0, e1, e2]
  refine (stored_apply xk xv xq u s d).trans ?_
  unfold headsOut
  simp only [hq, hk, hv]

end Cert.KernelIdeal.Body

end
-- ==== Proof.KernelValue.lean ====
/-
  The kernel's result array, as one function of the arguments.

  Around the one grid the program reshapes: each `[1, 8, 4096, 64]` argument loses its unit batch axis before the
  grid, and the `[8, 4096, 64]` result gains it back afterwards. The grid has eight points; point `t` loads head `t`
  of the three reshaped arrays (a `[1, 4096, 64]` block each) and writes head `t` of the result. The eight written
  blocks tile the result array, so after the grid it holds `Body.headsArr` of the three reshaped arguments, and the
  final reshape of that, read at `(u, h, s, d)`, is `AttnSpec.keysValuesFirst` of the arguments themselves.
-/
import proofs.«118114_j89421219103270_2_alg».proof.Proof.Gen.KernelIdeal.Frame
import proofs.«118114_j89421219103270_2_alg».proof.Proof.KernelBody
import proofs.«118114_j89421219103270_2_alg».proof.Proof.AttnSpec
import Idealize.ShloMosaic.Lib.Pipeline.Value
import Idealize.ShloMosaic.Lib.ValueLayout
import Idealize.ShloMosaic.Lib.StableHlo.Run
import Idealize.ShloMosaic.Lib.Tactic

set_option maxRecDepth 16384

noncomputable section

namespace Cert.KernelIdeal.ArrayValue

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The four windows move together: at point `t` each is at block `(t, 0, 0)`. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) < 8 ∧ win0_3.index t (1 : Fin 3) = 0 ∧ win0_3.index t (2 : Fin 3) = 0 :=
  (by decide +kernel : ∀ t : Fin grid0.N, _)

/-- Every head is some point's block. -/
theorem idx_onto : ∀ h : Fin 8, ∃ t : Fin cfg0.N, win0_3.index t = ![h.val, 0, 0] :=
  (by decide +kernel : ∀ h : Fin 8, ∃ t : Fin grid0.N, win0_3.index t = ![h.val, 0, 0])

/-- The head point `t` works on. -/
def headOf (t : Fin cfg0.N) : Fin 8 := ⟨win0_3.index t (0 : Fin 3), (idx_facts t).2.2.2.2.2.2.2.2.2.1⟩

/-- The queries' block at point `t` is head `t` of the reshaped queries. -/
theorem iblk0_apply (c : Dev nD) (t : Fin cfg0.N) (s : Fin 4096) (e : Fin 64) :
    (iblk m c 0 t : Vec Ideal S1x4096x64 .f32) (ix3 (0 : Fin 1) s e) = (V m c main_v0 : S8x4096x64.Idx → EReal) (ix3 (headOf t) s e) := by
  obtain ⟨a0, a1, a2, -⟩ := idx_facts t
  unfold iblk
  rw [View.read_apply]
  show V m c main_v0 _ = V m c main_v0 _
  congr 1
  funext a
  apply Fin.ext
  match a with
  | ⟨0, _⟩ => show win0_0.index t (0 : Fin 3) * 1 + 1 * 0 = win0_3.index t (0 : Fin 3); omega
  | ⟨1, _⟩ => show win0_0.index t (1 : Fin 3) * 4096 + 1 * s.val = s.val; omega
  | ⟨2, _⟩ => show win0_0.index t (2 : Fin 3) * 64 + 1 * e.val = e.val; omega

/-- The keys' block at point `t` is head `t` of the reshaped keys. -/
theorem iblk1_apply (c : Dev nD) (t : Fin cfg0.N) (s : Fin 4096) (e : Fin 64) :
    (iblk m c 1 t : Vec Ideal S1x4096x64 .f32) (ix3 (0 : Fin 1) s e) = (V m c main_v1 : S8x4096x64.Idx → EReal) (ix3 (headOf t) s e) := by
  obtain ⟨-, -, -, a0, a1, a2, -⟩ := idx_facts t
  unfold iblk
  rw [View.read_apply]
  show V m c main_v1 _ = V m c main_v1 _
  congr 1
  funext a
  apply Fin.ext
  match a with
  | ⟨0, _⟩ => show win0_1.index t (0 : Fin 3) * 1 + 1 * 0 = win0_3.index t (0 : Fin 3); omega
  | ⟨1, _⟩ => show win0_1.index t (1 : Fin 3) * 4096 + 1 * s.val = s.val; omega
  | ⟨2, _⟩ => show win0_1.index t (2 : Fin 3) * 64 + 1 * e.val = e.val; omega

/-- The values' block at point `t` is head `t` of the reshaped values. -/
theorem iblk2_apply (c : Dev nD) (t : Fin cfg0.N) (s : Fin 4096) (e : Fin 64) :
    (iblk m c 2 t : Vec Ideal S1x4096x64 .f32) (ix3 (0 : Fin 1) s e) = (V m c main_v2 : S8x4096x64.Idx → EReal) (ix3 (headOf t) s e) := by
  obtain ⟨-, -, -, -, -, -, a0, a1, a2, -⟩ := idx_facts t
  unfold iblk
  rw [View.read_apply]
  show V m c main_v2 _ = V m c main_v2 _
  congr 1
  funext a
  apply Fin.ext
  match a with
  | ⟨0, _⟩ => show win0_2.index t (0 : Fin 3) * 1 + 1 * 0 = win0_3.index t (0 : Fin 3); omega
  | ⟨1, _⟩ => show win0_2.index t (1 : Fin 3) * 4096 + 1 * s.val = s.val; omega
  | ⟨2, _⟩ => show win0_2.index t (2 : Fin 3) * 64 + 1 * e.val = e.val; omega

/-- What point `t` writes back is block `t` of `headsArr` of the three arrays as the grid finds them. -/
theorem flushed_eq (c : Dev nD) (t : Fin cfg0.N) :
    (dats m 0 c).flushed 3 t
      = ((cfg0.win 3).blk t).view.read (Elt Ideal) (headsArr (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S1x4096x64) hz]
  obtain ⟨-, -, -, -, -, -, -, -, -, -, b1, b2⟩ := idx_facts t
  funext j
  show k0_pay1 (F := Ideal) (iblk m c 1 t) (iblk m c 2 t) (iblk m c 0 t) j
    = headsArr (V m c main_v0) (V m c main_v1) (V m c main_v2) (((cfg0.win 3).blk t).view.emb j)
  refine stored_eq_head (iblk m c 0 t) (iblk m c 1 t) (iblk m c 2 t) _ _ _ (headOf t)
    (iblk0_apply m c t) (iblk1_apply m c t) (iblk2_apply m c t) j _ ?_ ?_ ?_
  · show win0_3.index t (0 : Fin 3) * 1 + 1 * (j 0).val = win0_3.index t (0 : Fin 3)
    have hj : (j 0).val < 1 := (j 0).isLt
    omega
  · show win0_3.index t (1 : Fin 3) * 4096 + 1 * (j 1).val = (j 1).val
    omega
  · show win0_3.index t (2 : Fin 3) * 64 + 1 * (j 2).val = (j 2).val
    omega

/-- An index of the result array is in point `t`'s block iff each coordinate is in the block's range on its axis. -/
theorem mem_blk (t : Fin cfg0.N) (i : S8x4096x64.Idx) :
    i ∈ ((cfg0.win 3).blk t).view.set ↔ ∀ a : Fin 3, win0_3.index t a * S1x4096x64.size a ≤ (i a).val ∧ (i a).val < win0_3.index t a * S1x4096x64.size a + S1x4096x64.size a := by
  show i ∈ ((View.whole main_v3).slice (win0_3.rect t)).set ↔ _
  rw [View.set_slice_whole, Rect.mem_set_unit]
  exact Iff.rfl

/-- The eight blocks tile the result array: entry `(h, s, d)` is in the block of the point working on head `h`. -/
theorem covered (i : S8x4096x64.Idx) : ∃ t : Fin cfg0.N, (cfg0.win 3).flush t = true ∧ i ∈ ((cfg0.win 3).blk t).view.set := by
  have hi0 : (i 0).val < 8 := (i 0).isLt
  have hi1 : (i 1).val < 4096 := (i 1).isLt
  have hi2 : (i 2).val < 64 := (i 2).isLt
  obtain ⟨t, ht⟩ := idx_onto ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 4096 ≤ (i 1).val ∧ (i 1).val < win0_3.index t (1 : Fin 3) * 4096 + 4096; omega
  | ⟨2, _⟩ => show win0_3.index t (2 : Fin 3) * 64 ≤ (i 2).val ∧ (i 2).val < win0_3.index t (2 : Fin 3) * 64 + 64; omega

/-- The result array after the grid. -/
theorem final (c : Dev nD) :
    (dats m 0 c).arrAt 3 cfg0.N = headsArr (V m c main_v0) (V m c main_v1) (V m c main_v2) :=
  (dats m 0 c).arrAt_eq_of_cover 3 _ (fun t _ => flushed_eq m c t) covered

/-! ## The reshapes around the grid -/

/-- The grid finds the queries with their unit batch axis dropped. -/
theorem V_main_v0 (c : Dev nD) : (V m c main_v0 : S8x4096x64.Idx → EReal)
    = shapeCast S8x4096x64 (m ((c : Thread nD τ).loc main_arg0)) shapeCasts_S1x8x4096x64_S8x4096x64 := by
  show StableHlo.after hostOps0 (fun b => m (c, b)) (Proc.devRef .tc main_v0) = _
  after_results
  rfl

/-- The grid finds the keys with their unit batch axis dropped. -/
theorem V_main_v1 (c : Dev nD) : (V m c main_v1 : S8x4096x64.Idx → EReal)
    = shapeCast S8x4096x64 (m ((c : Thread nD τ).loc main_arg1)) shapeCasts_S1x8x4096x64_S8x4096x64 := by
  show StableHlo.after hostOps0 (fun b => m (c, b)) (Proc.devRef .tc main_v1) = _
  after_results
  rfl

/-- The grid finds the values with their unit batch axis dropped. -/
theorem V_main_v2 (c : Dev nD) : (V m c main_v2 : S8x4096x64.Idx → EReal)
    = shapeCast S8x4096x64 (m ((c : Thread nD τ).loc main_arg2)) shapeCasts_S1x8x4096x64_S8x4096x64 := by
  show StableHlo.after hostOps0 (fun b => m (c, b)) (Proc.devRef .tc main_v2) = _
  after_results
  rfl

/-- The program's result: the unit batch axis put back on `headsArr` of the three reshaped arguments. -/
def result (c : Dev nD) : S1x8x4096x64.Idx → EReal :=
  shapeCast S1x8x4096x64
    (headsArr (shapeCast S8x4096x64 (m ((c : Thread nD τ).loc main_arg0)) shapeCasts_S1x8x4096x64_S8x4096x64)
      (shapeCast S8x4096x64 (m ((c : Thread nD τ).loc main_arg1)) shapeCasts_S1x8x4096x64_S8x4096x64)
      (shapeCast S8x4096x64 (m ((c : Thread nD τ).loc main_arg2)) shapeCasts_S1x8x4096x64_S8x4096x64))
    shapeCasts_S8x4096x64_S1x8x4096x64

/-- What the line after the grid leaves in the result buffer. -/
theorem tail_main_v4 (c : Dev nD) :
    Pipeline.afterTail₀ cfgs (dats m) 0 (V0 m) [hostOps1] c main_v4 = result m c := by
  have e : Pipeline.withArrays (cfgs 0).spec c (V0 m c) (fun w => (dats m 0 c).arrAt w (cfgs 0).N) (Proc.devRef .tc main_v3)
      = headsArr (V m c main_v0) (V m c main_v1) (V m c main_v2) :=
    (Pipeline.withArrays_arr spec0 launch0.win.arr_inj c _ _ 3).trans (final m c)
  unfold Pipeline.afterTail₀
  show StableHlo.after hostOps1 _ (Proc.devRef .tc main_v4) = _
  after_results
  rw [e, V_main_v0, V_main_v1, V_main_v2]
  rfl

/-! ## The run, read -/

/-- Every weakly fair execution ends with the result buffer at `result` and the arguments as launched. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (tail_main_v4 m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

/-- The result at `(u, h, s, d)`: the kernel's arrangement of the arguments' entries. -/
theorem result_apply (c : Dev nD) (u : Fin 1) (h : Fin 8) (s : Fin 4096) (d : Fin 64) :
    result m c (ix4 u h s d)
      = Cert.AttnSpec.keysValuesFirst (m ((c : Thread nD τ).loc main_arg0)) (m ((c : Thread nD τ).loc main_arg1))
          (m ((c : Thread nD τ).loc main_arg2)) (Ideal.ofBits .f32 0x3E000000#32) u h s d := by
  obtain rfl : u = 0 := Subsingleton.elim _ _
  unfold result
  refine (ValueIdx.shapeCast_abc_1abc_apply _ _ 0 h s d).trans ?_
  show headsOut _ _ _ h s d = _
  unfold headsOut Cert.AttnSpec.keysValuesFirst
  refine Finset.sum_congr rfl fun e _ => ?_
  refine congrArg₂ (· * ·) (ValueIdx.shapeCast_1abc_abc_apply _ _ h s e) ?_
  refine congrArg₂ (· * ·) ?_ rfl
  exact Finset.sum_congr rfl fun t _ =>
    congrArg₂ (· * ·) (ValueIdx.shapeCast_1abc_abc_apply _ _ h t e) (ValueIdx.shapeCast_1abc_abc_apply _ _ h t d)

end Cert.KernelIdeal.ArrayValue

end
-- ==== Proof.lean ====
/-
  The certificate's claims.

  The kernel reorders an attention-shaped computation that has no nonlinearity between its two matrix products: the
  reference computes `(c · Q Kᵀ) V` (a `4096 × 4096` score matrix per head), the kernel `Q (c · Kᵀ V)` (a `64 × 64`
  matrix per head), with `c = 0.125`. Over the reals these are the same number entry by entry — associativity of the
  matrix product, that is, distributivity and an exchange of two finite sums — and the precondition makes every input
  entry a real, so at the ideal values the two programs end with equal results.

  * the three frames: the two printed kernels' are the generated frame runs; the reference's is its generated run with
    the result forgotten;
  * the idealization rewrote no operation, so there is nothing to preserve;
  * the value claim: the kernel's result array read at an index (`KernelValue`), the reference's (`RefValue`), the
    entries real (`Finite`), and the law (`AttnSpec`, `AttnLaw`).
-/
import proofs.«118114_j89421219103270_2_alg».proof.Defs
import proofs.«118114_j89421219103270_2_alg».proof.Proof.Gen.Kernel
import proofs.«118114_j89421219103270_2_alg».proof.Proof.Gen.Kernel.Skeleton
import proofs.«118114_j89421219103270_2_alg».proof.Proof.Gen.Kernel.Launch
import proofs.«118114_j89421219103270_2_alg».proof.Proof.Gen.Kernel.Points
import proofs.«118114_j89421219103270_2_alg».proof.Proof.Gen.Kernel.Frame
import proofs.«118114_j89421219103270_2_alg».proof.Proof.Gen.KernelIdeal
import proofs.«118114_j89421219103270_2_alg».proof.Proof.Gen.KernelIdeal.Skeleton
import proofs.«118114_j89421219103270_2_alg».proof.Proof.Gen.KernelIdeal.Launch
import proofs.«118114_j89421219103270_2_alg».proof.Proof.Gen.KernelIdeal.Points
import proofs.«118114_j89421219103270_2_alg».proof.Proof.Gen.KernelIdeal.Frame
import proofs.«118114_j89421219103270_2_alg».proof.Proof.Gen.ReferenceIdeal
import proofs.«118114_j89421219103270_2_alg».proof.Proof.Gen.Pre_finite_inputs
import proofs.«118114_j89421219103270_2_alg».proof.Proof.Gen.ReferenceIdeal.Run
import proofs.«118114_j89421219103270_2_alg».proof.Proof.Gen.ReferenceIdeal.Read
import proofs.«118114_j89421219103270_2_alg».proof.Proof.AttnSpec
import proofs.«118114_j89421219103270_2_alg».proof.Proof.Finite
import proofs.«118114_j89421219103270_2_alg».proof.Proof.RefValue
import proofs.«118114_j89421219103270_2_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel runs and leaves its arguments as launched. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The reference's result IS any array that reads, at every `(u, h, s, d)`, as the kernel's arrangement of the same
    finite entries: the two arrangements are one number (`AttnSpec.keysValuesFirst_eq_scoresFirst`). -/
theorem reference_eq (q k v R : Cert.AttnSpec.QKV.Idx → EReal)
    (hq : ∀ i, ∃ r : ℝ, q i = r) (hk : ∀ i, ∃ r : ℝ, k i = r) (hv : ∀ i, ∃ r : ℝ, v i = r)
    (hR : ∀ (u : Fin 1) (h : Fin 8) (s : Fin 4096) (d : Fin 64),
      R (ix4 u h s d) = Cert.AttnSpec.keysValuesFirst q k v (Ideal.ofBits .f32 0x3E000000#32) u h s d) :
    Cert.ReferenceIdeal.Read.val_main_v3 (F := Ideal) q k v = R := by
  funext (i : Cert.AttnSpec.QKV.Idx)
  obtain ⟨u, h, s, d, rfl⟩ : ∃ (u : Fin 1) (h : Fin 8) (s : Fin 4096) (d : Fin 64), i = ix4 u h s d :=
    ⟨i 0, i 1, i 2, i 3, eq_ix4 i⟩
  rw [Cert.ReferenceIdeal.RefValue.result_apply, hR]
  exact (Cert.AttnSpec.keysValuesFirst_eq_scoresFirst q k v _ hq hk hv Cert.AttnLaw.scale_real _ _ _ _).symm

/-- From memories agreeing on finite arguments the two idealized programs end with equal results. -/
theorem algebraic : Cert.algebraic_KernelIdeal_ReferenceIdeal := by
  intro m ρ m' ρ' hpre hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, (hagree c).1, (hagree c).2.1, (hagree c).2.2]
  obtain ⟨hq, hk, hv⟩ := Cert.Pre_finite_inputs.Finite.finite_of_pre _ _ _ (hpre c)
  exact reference_eq _ _ _ _ hq hk hv (Cert.KernelIdeal.ArrayValue.result_apply m c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
